-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S5000x64 : Shape := ⟨2, ![5000, 64]⟩
abbrev S1x64 : Shape := ⟨2, ![1, 64]⟩
abbrev S100000x32 : Shape := ⟨2, ![100000, 32]⟩
abbrev S5000x32 : Shape := ⟨2, ![5000, 32]⟩
abbrev S1x32 : Shape := ⟨2, ![1, 32]⟩

abbrev nBuf : Space → Nat
  | .hbm => 64
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .f32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | .hbm, ⟨51, _⟩ => ⟨S_, .f32⟩
  | .hbm, ⟨52, _⟩ => ⟨S1200000, .f32⟩
  | .hbm, ⟨53, _⟩ => ⟨S_, .f32⟩
  | .hbm, ⟨54, _⟩ => ⟨S100000, .f32⟩
  | .hbm, ⟨55, _⟩ => ⟨S1200000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x32, .f32⟩
  | .local _ .vmem, ⟨14, _⟩ => ⟨S64x32, .f32⟩
  | .local _ .vmem, ⟨15, _⟩ => ⟨S32, .f32⟩
  | .local _ .vmem, ⟨16, _⟩ => ⟨S5000x32, .f32⟩
  | .local _ .vmem, ⟨17, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S_, .f32⟩
  | .hbm, ⟨60, _⟩ => ⟨S1200000, .f32⟩
  | .hbm, ⟨61, _⟩ => ⟨S_, .f32⟩
  | .hbm, ⟨62, _⟩ => ⟨S100000, .f32⟩
  | .hbm, ⟨63, _⟩ => ⟨S1200000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S100000x32, .f32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibSageDense.lean ====
/-
  The dense step of a mean-aggregating graph layer, entry by entry, on the extended reals.

  For a matrix `A` of aggregated neighbour features and a matrix `X` of the nodes' own features (both `m × k`), two
  weight matrices `Wl`, `Wr` (`k × n`) and a bias `b` of `n` entries, the step's entry `(r, c)` is
  `(∑_q A_{r,q} Wl_{q,c} + ∑_q X_{r,q} Wr_{q,c}) + b_c`, optionally followed by the positive part. Nothing here needs
  finiteness: both programs add the two products first and the bias last, so the two sides are the same expression.

  * A kernel spells it with two matrix products into zero accumulators (their operands first rounded to a narrower
    format, which is the identity on the extended reals), their sum, the bias kept as a one-row matrix and repeated down
    the rows, and a maximum with the splat of zero.
  * The host spells it with two `dot_general`s, their sum, the bias broadcast to one row and then down the rows, and a
    maximum with the broadcast of the scalar zero.
  * The step applied to a block of consecutive rows is the block of the step: entry `(p, c)` of the former is entry
    `(row p, c)` of the latter, when the blocks of `A` and `X` are the rows `row p`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«106176_j44547400794522_1_alg».proof.Proof.LibMatmulPlain

noncomputable section

open scoped BigOperators

namespace Cert.LibSageDense

open Idealize.ShloMosaic Idealize.ShloMosaic.ValueIdx

variable {M m k n : Nat}

/-- Entry `(r, c)` of the dense step: the two inner products, then the bias. -/
def denseAt (A X : FVec Ideal ⟨2, ![m, k]⟩ .f32) (Wl Wr : FVec Ideal ⟨2, ![k, n]⟩ .f32) (b : FVec Ideal ⟨1, ![n]⟩ .f32)
    (r : Fin m) (c : Fin n) : Ideal .f32 :=
  ((∑ q : Fin k, A (ix2 r q) * Wl (ix2 q c)) + ∑ q : Fin k, X (ix2 r q) * Wr (ix2 q c)) + b (ix1 c)

/-- The dense step as an array. -/
def layerLin (A X : FVec Ideal ⟨2, ![m, k]⟩ .f32) (Wl Wr : FVec Ideal ⟨2, ![k, n]⟩ .f32) (b : FVec Ideal ⟨1, ![n]⟩ .f32) :
    FVec Ideal ⟨2, ![m, n]⟩ .f32 :=
  fun i => denseAt A X Wl Wr b (i 0) (i 1)

/-- The dense step followed by the positive part (the maximum with the value of the all-zero word). -/
def layerRelu (A X : FVec Ideal ⟨2, ![m, k]⟩ .f32) (Wl Wr : FVec Ideal ⟨2, ![k, n]⟩ .f32) (b : FVec Ideal ⟨1, ![n]⟩ .f32) :
    FVec Ideal ⟨2, ![m, n]⟩ .f32 :=
  fun i => max (denseAt A X Wl Wr b (i 0) (i 1)) (FloatOps.ofBits (F := Ideal) .f32 0x00000000#32)

theorem layerLin_apply (A X : FVec Ideal ⟨2, ![m, k]⟩ .f32) (Wl Wr : FVec Ideal ⟨2, ![k, n]⟩ .f32)
    (b : FVec Ideal ⟨1, ![n]⟩ .f32) (r : Fin m) (c : Fin n) :
    layerLin A X Wl Wr b (ix2 r c) = denseAt A X Wl Wr b r c := rfl

theorem layerRelu_apply (A X : FVec Ideal ⟨2, ![m, k]⟩ .f32) (Wl Wr : FVec Ideal ⟨2, ![k, n]⟩ .f32)
    (b : FVec Ideal ⟨1, ![n]⟩ .f32) (r : Fin m) (c : Fin n) :
    layerRelu A X Wl Wr b (ix2 r c) = max (denseAt A X Wl Wr b r c) (FloatOps.ofBits (F := Ideal) .f32 0x00000000#32) := rfl

/-! ## The kernel's spelling -/

/-- The kernel's dense step at an entry: two products of rounded operands into zero accumulators, summed, plus the bias
    cast to one row and repeated down the rows. -/
theorem kernel_dense_apply (dd : DotDims ⟨2, ![m, k]⟩ ⟨2, ![k, n]⟩ ⟨2, ![m, n]⟩) (hdd : dd = DotDims.plain m k n)
    (A X : FVec Ideal ⟨2, ![m, k]⟩ .f32) (Wl Wr : FVec Ideal ⟨2, ![k, n]⟩ .f32) (b : FVec Ideal ⟨1, ![n]⟩ .f32)
    (hlt : FTy.bits .bf16 < FTy.bits .f32)
    (h1 : (⟨1, ![n]⟩ : Shape).ShapeCasts ⟨2, ![1, n]⟩) (hb : (⟨2, ![1, n]⟩ : Shape).Broadcasts ⟨2, ![m, n]⟩)
    (r : Fin m) (c : Fin n) :
    addf (addf (matmul dd none (truncf .bf16 A hlt) (truncf .bf16 Wl hlt) (constant (F := Ideal) ⟨2, ![m, n]⟩ .f32 0x00000000#32))
          (matmul dd none (truncf .bf16 X hlt) (truncf .bf16 Wr hlt) (constant (F := Ideal) ⟨2, ![m, n]⟩ .f32 0x00000000#32)))
        (broadcastTo ⟨2, ![m, n]⟩ (shapeCast ⟨2, ![1, n]⟩ b h1) hb) (ix2 r c)
      = denseAt A X Wl Wr b r c := by
  subst hdd
  rw [addf_apply, addf_apply, LibMatmulPlain.matmul_plain_zero_apply, LibMatmulPlain.matmul_plain_zero_apply,
    broadcastTo_1b_ab_apply, shapeCast_a_1a_apply]
  rfl

/-- The kernel's dense step with the positive part, as an array. -/
theorem kernel_layerRelu_eq (dd : DotDims ⟨2, ![m, k]⟩ ⟨2, ![k, n]⟩ ⟨2, ![m, n]⟩) (hdd : dd = DotDims.plain m k n)
    (A X : FVec Ideal ⟨2, ![m, k]⟩ .f32) (Wl Wr : FVec Ideal ⟨2, ![k, n]⟩ .f32) (b : FVec Ideal ⟨1, ![n]⟩ .f32)
    (hlt : FTy.bits .bf16 < FTy.bits .f32)
    (h1 : (⟨1, ![n]⟩ : Shape).ShapeCasts ⟨2, ![1, n]⟩) (hb : (⟨2, ![1, n]⟩ : Shape).Broadcasts ⟨2, ![m, n]⟩) :
    maximumf (addf (addf (matmul dd none (truncf .bf16 A hlt) (truncf .bf16 Wl hlt) (constant (F := Ideal) ⟨2, ![m, n]⟩ .f32 0x00000000#32))
          (matmul dd none (truncf .bf16 X hlt) (truncf .bf16 Wr hlt) (constant (F := Ideal) ⟨2, ![m, n]⟩ .f32 0x00000000#32)))
        (broadcastTo ⟨2, ![m, n]⟩ (shapeCast ⟨2, ![1, n]⟩ b h1) hb))
      (broadcast ⟨2, ![m, n]⟩ (Scalar.ofBits (F := Ideal) .f32 0x00000000#32))
      = layerRelu A X Wl Wr b := by
  funext i
  obtain ⟨r, c, rfl⟩ : ∃ (r : Fin m) (c : Fin n), i = ix2 r c := ⟨i 0, i 1, eq_ix2 i⟩
  rw [maximumf_apply, kernel_dense_apply dd hdd A X Wl Wr b hlt h1 hb r c, broadcast_apply]
  rfl

/-- The kernel's dense step without the positive part, as an array. -/
theorem kernel_layerLin_eq (dd : DotDims ⟨2, ![m, k]⟩ ⟨2, ![k, n]⟩ ⟨2, ![m, n]⟩) (hdd : dd = DotDims.plain m k n)
    (A X : FVec Ideal ⟨2, ![m, k]⟩ .f32) (Wl Wr : FVec Ideal ⟨2, ![k, n]⟩ .f32) (b : FVec Ideal ⟨1, ![n]⟩ .f32)
    (hlt : FTy.bits .bf16 < FTy.bits .f32)
    (h1 : (⟨1, ![n]⟩ : Shape).ShapeCasts ⟨2, ![1, n]⟩) (hb : (⟨2, ![1, n]⟩ : Shape).Broadcasts ⟨2, ![m, n]⟩) :
    addf (addf (matmul dd none (truncf .bf16 A hlt) (truncf .bf16 Wl hlt) (constant (F := Ideal) ⟨2, ![m, n]⟩ .f32 0x00000000#32))
          (matmul dd none (truncf .bf16 X hlt) (truncf .bf16 Wr hlt) (constant (F := Ideal) ⟨2, ![m, n]⟩ .f32 0x00000000#32)))
        (broadcastTo ⟨2, ![m, n]⟩ (shapeCast ⟨2, ![1, n]⟩ b h1) hb)
      = layerLin A X Wl Wr b := by
  funext i
  obtain ⟨r, c, rfl⟩ : ∃ (r : Fin m) (c : Fin n), i = ix2 r c := ⟨i 0, i 1, eq_ix2 i⟩
  exact kernel_dense_apply dd hdd A X Wl Wr b hlt h1 hb r c

/-! ## The host's spelling -/

/-- The host's dense step at an entry: two `dot_general`s summed, plus the bias broadcast to one row and down the rows. -/
theorem host_dense_apply (dd : DotDims ⟨2, ![m, k]⟩ ⟨2, ![k, n]⟩ ⟨2, ![m, n]⟩) (hdd : dd = DotDims.plain m k n)
    (A X : FVec Ideal ⟨2, ![m, k]⟩ .f32) (Wl Wr : FVec Ideal ⟨2, ![k, n]⟩ .f32) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (addf (Host.dotGeneral dd none A Wl) (Host.dotGeneral dd none X Wr))
        (broadcastInDim ⟨2, ![m, n]⟩ ![0, 1] hd2 (broadcastInDim ⟨2, ![1, n]⟩ ![1] hd1 b)) (ix2 r c)
      = denseAt A X Wl Wr b r c := by
  subst hdd
  unfold denseAt
  rw [addf_apply, addf_apply, StackMember.dotGeneral_plain_apply, StackMember.dotGeneral_plain_apply,
    broadcastInDim_oneRow_apply]
  congr 1
  refine broadcastInDim_apply ![1] hd1 b (ix2 (0 : Fin 1) c) (ix1 c) fun a => ?_
  match a with
  | ⟨0, _⟩ =>
    show c.val = if n = 1 then 0 else c.val
    split
    · have := c.isLt; omega
    · rfl

/-- The host's dense step with the positive part, as an array. -/
theorem host_layerRelu_eq (dd : DotDims ⟨2, ![m, k]⟩ ⟨2, ![k, n]⟩ ⟨2, ![m, n]⟩) (hdd : dd = DotDims.plain m k n)
    (A X : FVec Ideal ⟨2, ![m, k]⟩ .f32) (Wl Wr : FVec Ideal ⟨2, ![k, n]⟩ .f32) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1])
    (hz : (⟨0, ![]⟩ : Shape).BroadcastsInDim ⟨2, ![m, n]⟩ ![]) :
    maximumf (addf (addf (Host.dotGeneral dd none A Wl) (Host.dotGeneral dd none X Wr))
        (broadcastInDim ⟨2, ![m, n]⟩ ![0, 1] hd2 (broadcastInDim ⟨2, ![1, n]⟩ ![1] hd1 b)))
      (broadcastInDim ⟨2, ![m, n]⟩ ![] hz (constant (F := Ideal) ⟨0, ![]⟩ .f32 0x00000000#32))
      = layerRelu A X Wl Wr b := by
  funext i
  obtain ⟨r, c, rfl⟩ : ∃ (r : Fin m) (c : Fin n), i = ix2 r c := ⟨i 0, i 1, eq_ix2 i⟩
  rw [maximumf_apply, host_dense_apply dd hdd A X Wl Wr b hd1 hd2 r c,
    broadcastInDim_apply ![] hz (constant (F := Ideal) ⟨0, ![]⟩ .f32 0x00000000#32) (ix2 r c) ix0 (fun a => a.elim0)]
  rfl

/-- The host's dense step without the positive part, as an array. -/
theorem host_layerLin_eq (dd : DotDims ⟨2, ![m, k]⟩ ⟨2, ![k, n]⟩ ⟨2, ![m, n]⟩) (hdd : dd = DotDims.plain m k n)
    (A X : FVec Ideal ⟨2, ![m, k]⟩ .f32) (Wl Wr : FVec Ideal ⟨2, ![k, n]⟩ .f32) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) :
    addf (addf (Host.dotGeneral dd none A Wl) (Host.dotGeneral dd none X Wr))
        (broadcastInDim ⟨2, ![m, n]⟩ ![0, 1] hd2 (broadcastInDim ⟨2, ![1, n]⟩ ![1] hd1 b))
      = layerLin A X Wl Wr b := by
  funext i
  obtain ⟨r, c, rfl⟩ : ∃ (r : Fin m) (c : Fin n), i = ix2 r c := ⟨i 0, i 1, eq_ix2 i⟩
  exact host_dense_apply dd hdd A X Wl Wr b hd1 hd2 r c

/-! ## A block of rows -/

/-- An entry of the dense step on a block of rows is the entry of the step on the whole matrices at the block's row. -/
theorem denseAt_block (A X : FVec Ideal ⟨2, ![M, k]⟩ .f32) (A' X' : FVec Ideal ⟨2, ![m, k]⟩ .f32)
    (Wl Wr Wl' Wr' : FVec Ideal ⟨2, ![k, n]⟩ .f32) (b b' : FVec Ideal ⟨1, ![n]⟩ .f32) (row : Fin m → Fin M)
    (hA : ∀ p q, A' (ix2 p q) = A (ix2 (row p) q)) (hX : ∀ p q, X' (ix2 p q) = X (ix2 (row p) q))
    (hWl : ∀ q c, Wl' (ix2 q c) = Wl (ix2 q c)) (hWr : ∀ q c, Wr' (ix2 q c) = Wr (ix2 q c))
    (hb : ∀ c, b' (ix1 c) = b (ix1 c)) (p : Fin m) (c : Fin n) :
    denseAt A' X' Wl' Wr' b' p c = denseAt A X Wl Wr b (row p) c := by
  unfold denseAt
  simp only [hA, hX, hWl, hWr, hb]

end Cert.LibSageDense

end
-- ==== Proof.Region0.lean ====
/-
  The first layer's region: what the result array holds after it.

  The region's grid has 20 points; point `t` works on rows `5000·t … 5000·t + 4999` of the node matrices: the blocks of
  the aggregated features and of the nodes' own features at `t` are those rows, the two weight matrices and the bias are
  whole at every point, and the block written back is those rows of the result. The body's one store is the dense step
  of its loaded blocks, followed by the positive part; since an entry of the dense step depends only on its own row of the two feature
  matrices, the block a point writes back is that block of the dense step of the WHOLE matrices, and the 20 blocks tile
  the array: after the region the result array is the dense step of the arrays the region found.
-/
import proofs.«106176_j44547400794522_1_alg».proof.Proof.Gen.KernelIdeal.Frame
import proofs.«106176_j44547400794522_1_alg».proof.Proof.LibSageDense
import Idealize.ShloMosaic.Lib.Pipeline.Value

noncomputable section

namespace Cert.Sage.Region0

open Cert.KernelIdeal Cert.KernelIdeal.Gen Idealize.ShloMosaic Idealize.ShloMosaic.TcCoe Idealize.SL.Sem
open Idealize.ShloMosaic.ValueIdx Cert.LibSageDense
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the dense step of its loaded blocks with the positive part. -/
theorem pay_eq (x0 x1 : FVec Ideal S5000x64 .f32) (x2 x3 : FVec Ideal S64x64 .f32) (x4 : FVec Ideal S64 .f32) :
    k0_pay1 (F := Ideal) x0 x1 x2 x3 x4 = layerRelu (m := 5000) (k := 64) (n := 64) x0 x1 x2 x3 x4 := by
  unfold k0_pay1
  simp only [shapeCast_self]
  exact kernel_layerRelu_eq dot_S5000x64_S64x64_S5000x64_1_0_0_1_n_n rfl x0 x1 x2 x3 x4 bitsLt_bf16_f32 shapeCasts_S64_S1x64 broadcasts_S1x64_S5000x64

/-- The printed index maps, decided over the grid: the row-blocked windows sit at block row `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem lt20 (t : Fin cfg0.N) : t.val < 20 := lt_of_lt_of_eq t.isLt N_0

/-- The row of the node matrices that row `p` of point `t`'s blocks is. -/
def rowOf (t : Fin cfg0.N) (p : Fin 5000) : Fin 100000 := ⟨t.val * 5000 + p.val, by have := lt20 t; omega⟩

/-- Entry `(p, q)` of the output block at point `t` sits at row `rowOf t p`, column `q` of the result array. -/
theorem emb_out (t : Fin cfg0.N) (p : Fin 5000) (q : Fin 64) :
    ((cfg0.win 5).blk t).view.emb (ix2 p q) = ix2 (rowOf t p) q := by
  obtain ⟨-, -, -, -, -, -, -, -, -, e0, e1⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 64 + 1 * q.val = q.val; omega

/-- The block of the aggregated features at point `t` is rows `rowOf t ·` of their array. -/
theorem blk0 (c : Dev nD) (t : Fin cfg0.N) (p : Fin 5000) (q : Fin 64) :
    iblk0 V c 0 t (ix2 p q) = V c main_v22 (ix2 (rowOf t p) q) := by
  obtain ⟨e0, e1, -⟩ := idx_facts t
  show V c main_v22 (((cfg0.win 0).blk t).view.emb (ix2 p q)) = _
  refine congrArg (V c main_v22) ?_
  funext a; apply Fin.ext
  match a with
  | ⟨0, _⟩ => show win0_0.index t (0 : Fin 2) * 5000 + 1 * p.val = t.val * 5000 + p.val; omega
  | ⟨1, _⟩ => show win0_0.index t (1 : Fin 2) * 64 + 1 * q.val = q.val; omega

/-- The block of the nodes' own features at point `t` is rows `rowOf t ·` of their array. -/
theorem blk1 (c : Dev nD) (t : Fin cfg0.N) (p : Fin 5000) (q : Fin 64) :
    iblk0 V c 1 t (ix2 p q) = V c main_arg0 (ix2 (rowOf t p) q) := by
  obtain ⟨-, -, e0, e1, -⟩ := idx_facts t
  show V c main_arg0 (((cfg0.win 1).blk t).view.emb (ix2 p q)) = _
  refine congrArg (V c main_arg0) ?_
  funext a; apply Fin.ext
  match a with
  | ⟨0, _⟩ => show win0_1.index t (0 : Fin 2) * 5000 + 1 * p.val = t.val * 5000 + p.val; omega
  | ⟨1, _⟩ => show win0_1.index t (1 : Fin 2) * 64 + 1 * q.val = q.val; omega

/-- The first weight matrix is whole at every point. -/
theorem blk2 (c : Dev nD) (t : Fin cfg0.N) (q : Fin 64) (d : Fin 64) :
    iblk0 V c 2 t (ix2 q d) = V c main_arg2 (ix2 q d) := by
  obtain ⟨-, -, -, -, e0, e1, -⟩ := idx_facts t
  show V c main_arg2 (((cfg0.win 2).blk t).view.emb (ix2 q d)) = _
  refine congrArg (V c main_arg2) ?_
  funext a; apply Fin.ext
  match a with
  | ⟨0, _⟩ => show win0_2.index t (0 : Fin 2) * 64 + 1 * q.val = q.val; omega
  | ⟨1, _⟩ => show win0_2.index t (1 : Fin 2) * 64 + 1 * d.val = d.val; omega

/-- The second weight matrix is whole at every point. -/
theorem blk3 (c : Dev nD) (t : Fin cfg0.N) (q : Fin 64) (d : Fin 64) :
    iblk0 V c 3 t (ix2 q d) = V c main_arg3 (ix2 q d) := by
  obtain ⟨-, -, -, -, -, -, e0, e1, -⟩ := idx_facts t
  show V c main_arg3 (((cfg0.win 3).blk t).view.emb (ix2 q d)) = _
  refine congrArg (V c main_arg3) ?_
  funext a; apply Fin.ext
  match a with
  | ⟨0, _⟩ => show win0_3.index t (0 : Fin 2) * 64 + 1 * q.val = q.val; omega
  | ⟨1, _⟩ => show win0_3.index t (1 : Fin 2) * 64 + 1 * d.val = d.val; omega

/-- The bias is whole at every point. -/
theorem blk4 (c : Dev nD) (t : Fin cfg0.N) (d : Fin 64) :
    iblk0 V c 4 t (ix1 d) = V c main_arg4 (ix1 d) := by
  obtain ⟨-, -, -, -, -, -, -, -, e0, -⟩ := idx_facts t
  show V c main_arg4 (((cfg0.win 4).blk t).view.emb (ix1 d)) = _
  refine congrArg (V c main_arg4) ?_
  funext a; apply Fin.ext
  match a with
  | ⟨0, _⟩ => show win0_4.index t (0 : Fin 1) * 64 + 1 * d.val = d.val; omega

/-- What point `t` writes back is block `t` of the dense step of the arrays the region found. -/
theorem flushed_eq (c : Dev nD) (t : Fin cfg0.N) :
    (dat0 V c).flushed 5 t = ((cfg0.win 5).blk t).view.read (Elt Ideal)
      (layerRelu (m := 100000) (k := 64) (n := 64) (V c main_v22) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x64) hz2, View.ld_unit_zero (S := S64) hz1]
  rw [pay_eq]
  funext j
  obtain ⟨p, q, rfl⟩ : ∃ (p : Fin 5000) (q : Fin 64), j = ix2 p q := ⟨j 0, j 1, eq_ix2 j⟩
  show layerRelu (m := 5000) (k := 64) (n := 64) (iblk0 V c 0 t) (iblk0 V c 1 t) (iblk0 V c 2 t) (iblk0 V c 3 t) (iblk0 V c 4 t) (ix2 p q)
    = layerRelu (m := 100000) (k := 64) (n := 64) (V c main_v22) (V c main_arg0) (V c main_arg2) (V c main_arg3) (V c main_arg4) (((cfg0.win 5).blk t).view.emb (ix2 p q))
  rw [emb_out t p q, layerRelu_apply, layerRelu_apply]
  refine congrArg (max · _) ?_
  exact denseAt_block _ _ _ _ _ _ _ _ _ _ (rowOf t) (blk0 V c t) (blk1 V c t) (blk2 V c t) (blk3 V c t) (blk4 V c t) p q

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v23).slice (win0_5.rect t)).set ↔ _
  rw [View.set_slice_whole, Rect.mem_set_unit]
  exact Iff.rfl

/-- Every index of the result array is in the block of the point its row falls in. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- After the region the result array is the dense step of the arrays the region found. -/
theorem final (c : Dev nD) :
    (dat0 V c).arrAt 5 cfg0.N
      = layerRelu (m := 100000) (k := 64) (n := 64) (V c main_v22) (V c main_arg0) (V c main_arg2) (V c main_arg3) (V c main_arg4) :=
  (dat0 V c).arrAt_eq_of_cover 5 _ (fun t _ => flushed_eq V c t) cover

end Cert.Sage.Region0

end
-- ==== Proof.Region1.lean ====
/-
  The second layer's region: what the result array holds after it.

  The region's grid has 20 points; point `t` works on rows `5000·t … 5000·t + 4999` of the node matrices: the blocks of
  the aggregated features and of the nodes' own features at `t` are those rows, the two weight matrices and the bias are
  whole at every point, and the block written back is those rows of the result. The body's one store is the dense step
  of its loaded blocks; since an entry of the dense step depends only on its own row of the two feature
  matrices, the block a point writes back is that block of the dense step of the WHOLE matrices, and the 20 blocks tile
  the array: after the region the result array is the dense step of the arrays the region found.
-/
import proofs.«106176_j44547400794522_1_alg».proof.Proof.Gen.KernelIdeal.Frame
import proofs.«106176_j44547400794522_1_alg».proof.Proof.LibSageDense
import Idealize.ShloMosaic.Lib.Pipeline.Value

noncomputable section

namespace Cert.Sage.Region1

open Cert.KernelIdeal Cert.KernelIdeal.Gen Idealize.ShloMosaic Idealize.ShloMosaic.TcCoe Idealize.SL.Sem
open Idealize.ShloMosaic.ValueIdx Cert.LibSageDense
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the dense step of its loaded blocks. -/
theorem pay_eq (x0 x1 : FVec Ideal S5000x64 .f32) (x2 x3 : FVec Ideal S64x32 .f32) (x4 : FVec Ideal S32 .f32) :
    k1_pay1 (F := Ideal) x0 x1 x2 x3 x4 = layerLin (m := 5000) (k := 64) (n := 32) x0 x1 x2 x3 x4 := by
  unfold k1_pay1
  simp only [shapeCast_self]
  exact kernel_layerLin_eq dot_S5000x64_S64x32_S5000x32_1_0_0_1_n_n rfl x0 x1 x2 x3 x4 bitsLt_bf16_f32 shapeCasts_S32_S1x32 broadcasts_S1x32_S5000x32

/-- The printed index maps, decided over the grid: the row-blocked windows sit at block row `t`, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem lt20 (t : Fin cfg1.N) : t.val < 20 := lt_of_lt_of_eq t.isLt N_1

/-- The row of the node matrices that row `p` of point `t`'s blocks is. -/
def rowOf (t : Fin cfg1.N) (p : Fin 5000) : Fin 100000 := ⟨t.val * 5000 + p.val, by have := lt20 t; omega⟩

/-- Entry `(p, q)` of the output block at point `t` sits at row `rowOf t p`, column `q` of the result array. -/
theorem emb_out (t : Fin cfg1.N) (p : Fin 5000) (q : Fin 32) :
    ((cfg1.win 5).blk t).view.emb (ix2 p q) = ix2 (rowOf t p) q := by
  obtain ⟨-, -, -, -, -, -, -, -, -, e0, e1⟩ := idx_facts t
  funext a; apply Fin.ext
  match a with
  | ⟨0, _⟩ => show win1_5.index t (0 : Fin 2) * 5000 + 1 * p.val = t.val * 5000 + p.val; omega
  | ⟨1, _⟩ => show win1_5.index t (1 : Fin 2) * 32 + 1 * q.val = q.val; omega

/-- The block of the aggregated features at point `t` is rows `rowOf t ·` of their array. -/
theorem blk0 (c : Dev nD) (t : Fin cfg1.N) (p : Fin 5000) (q : Fin 64) :
    iblk1 V c 0 t (ix2 p q) = V c main_v42 (ix2 (rowOf t p) q) := by
  obtain ⟨e0, e1, -⟩ := idx_facts t
  show V c main_v42 (((cfg1.win 0).blk t).view.emb (ix2 p q)) = _
  refine congrArg (V c main_v42) ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

/-- The block of the nodes' own features at point `t` is rows `rowOf t ·` of their array. -/
theorem blk1 (c : Dev nD) (t : Fin cfg1.N) (p : Fin 5000) (q : Fin 64) :
    iblk1 V c 1 t (ix2 p q) = V c main_v23 (ix2 (rowOf t p) q) := by
  obtain ⟨-, -, e0, e1, -⟩ := idx_facts t
  show V c main_v23 (((cfg1.win 1).blk t).view.emb (ix2 p q)) = _
  refine congrArg (V c main_v23) ?_
  funext a; apply Fin.ext
  match a with
  | ⟨0, _⟩ => show win1_1.index t (0 : Fin 2) * 5000 + 1 * p.val = t.val * 5000 + p.val; omega
  | ⟨1, _⟩ => show win1_1.index t (1 : Fin 2) * 64 + 1 * q.val = q.val; omega

/-- The first weight matrix is whole at every point. -/
theorem blk2 (c : Dev nD) (t : Fin cfg1.N) (q : Fin 64) (d : Fin 32) :
    iblk1 V c 2 t (ix2 q d) = V c main_arg5 (ix2 q d) := by
  obtain ⟨-, -, -, -, e0, e1, -⟩ := idx_facts t
  show V c main_arg5 (((cfg1.win 2).blk t).view.emb (ix2 q d)) = _
  refine congrArg (V c main_arg5) ?_
  funext a; apply Fin.ext
  match a with
  | ⟨0, _⟩ => show win1_2.index t (0 : Fin 2) * 64 + 1 * q.val = q.val; omega
  | ⟨1, _⟩ => show win1_2.index t (1 : Fin 2) * 32 + 1 * d.val = d.val; omega

/-- The second weight matrix is whole at every point. -/
theorem blk3 (c : Dev nD) (t : Fin cfg1.N) (q : Fin 64) (d : Fin 32) :
    iblk1 V c 3 t (ix2 q d) = V c main_arg6 (ix2 q d) := by
  obtain ⟨-, -, -, -, -, -, e0, e1, -⟩ := idx_facts t
  show V c main_arg6 (((cfg1.win 3).blk t).view.emb (ix2 q d)) = _
  refine congrArg (V c main_arg6) ?_
  funext a; apply Fin.ext
  match a with
  | ⟨0, _⟩ => show win1_3.index t (0 : Fin 2) * 64 + 1 * q.val = q.val; omega
  | ⟨1, _⟩ => show win1_3.index t (1 : Fin 2) * 32 + 1 * d.val = d.val; omega

/-- The bias is whole at every point. -/
theorem blk4 (c : Dev nD) (t : Fin cfg1.N) (d : Fin 32) :
    iblk1 V c 4 t (ix1 d) = V c main_arg7 (ix1 d) := by
  obtain ⟨-, -, -, -, -, -, -, -, e0, -⟩ := idx_facts t
  show V c main_arg7 (((cfg1.win 4).blk t).view.emb (ix1 d)) = _
  refine congrArg (V c main_arg7) ?_
  funext a; apply Fin.ext
  match a with
  | ⟨0, _⟩ => show win1_4.index t (0 : Fin 1) * 32 + 1 * d.val = d.val; omega

/-- What point `t` writes back is block `t` of the dense step of the arrays the region found. -/
theorem flushed_eq (c : Dev nD) (t : Fin cfg1.N) :
    (dat1 V c).flushed 5 t = ((cfg1.win 5).blk t).view.read (Elt Ideal)
      (layerLin (m := 100000) (k := 64) (n := 32) (V c main_v42) (V c main_v23) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64x32) hz2, View.ld_unit_zero (S := S32) hz1]
  rw [pay_eq]
  funext j
  obtain ⟨p, q, rfl⟩ : ∃ (p : Fin 5000) (q : Fin 32), j = ix2 p q := ⟨j 0, j 1, eq_ix2 j⟩
  show layerLin (m := 5000) (k := 64) (n := 32) (iblk1 V c 0 t) (iblk1 V c 1 t) (iblk1 V c 2 t) (iblk1 V c 3 t) (iblk1 V c 4 t) (ix2 p q)
    = layerLin (m := 100000) (k := 64) (n := 32) (V c main_v42) (V c main_v23) (V c main_arg5) (V c main_arg6) (V c main_arg7) (((cfg1.win 5).blk t).view.emb (ix2 p q))
  rw [emb_out t p q, layerLin_apply, layerLin_apply]
  exact denseAt_block _ _ _ _ _ _ _ _ _ _ (rowOf t) (blk0 V c t) (blk1 V c t) (blk2 V c t) (blk3 V c t) (blk4 V c t) p q

/-- An index of the result array is in point `t`'s block iff each coordinate is in the block's range on its axis. -/
theorem mem_blk (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v43).slice (win1_5.rect t)).set ↔ _
  rw [View.set_slice_whole, Rect.mem_set_unit]
  exact Iff.rfl

/-- Every index of the result array is in the block of the point its row falls in. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- After the region the result array is the dense step of the arrays the region found. -/
theorem final (c : Dev nD) :
    (dat1 V c).arrAt 5 cfg1.N
      = layerLin (m := 100000) (k := 64) (n := 32) (V c main_v42) (V c main_v23) (V c main_arg5) (V c main_arg6) (V c main_arg7) :=
  (dat1 V c).arrAt_eq_of_cover 5 _ (fun t _ => flushed_eq V c t) cover

end Cert.Sage.Region1

end
-- ==== Proof.Aggregate.lean ====
/-
  The mean aggregation over incoming edges, which both programs compute on the host with the same operations: the
  edge table's two rows give each edge's source and destination node; the features of the source nodes are gathered
  (a negative node number wrapped once by the number of nodes), added up per destination node, and divided by the
  larger of that node's number of incoming edges and one. It is stated once in each program's vocabulary of shapes and
  dimension records, as one function of the feature matrix and the two node vectors, and the two statements are the
  same function. Nothing about the gather or the scatter-add is opened: the two programs are compared above them.
-/
import proofs.«106176_j44547400794522_1_alg».proof.Proof.Gen.KernelIdeal
import proofs.«106176_j44547400794522_1_alg».proof.Proof.Gen.ReferenceIdeal

noncomputable section

open Idealize.ShloMosaic

variable {F : FTy → Type} [FloatOps F]

namespace Cert.Sage.K

open Cert.KernelIdeal Cert.KernelIdeal.Facts₀

/-- The source nodes of the edges: row 0 of the edge table, as a vector. -/
def srcOf (ei : (⟨S2x1200000, .i32⟩ : BufTy).Contents (Elt F)) : (⟨S1200000, .i32⟩ : BufTy).Contents (Elt F) :=
  shapeCast _ (extractStridedSlice S1x1200000 ![0, 0] ei slices_S2x1200000_S1x1200000_0_0) shapeCasts_S1x1200000_S1200000

/-- The destination nodes of the edges: row 1 of the edge table, as a vector. -/
def dstOf (ei : (⟨S2x1200000, .i32⟩ : BufTy).Contents (Elt F)) : (⟨S1200000, .i32⟩ : BufTy).Contents (Elt F) :=
  shapeCast _ (extractStridedSlice S1x1200000 ![1, 0] ei slices_S2x1200000_S1x1200000_1_0) shapeCasts_S1x1200000_S1200000

/-- The mean of the neighbours' features: gather the rows of `h` at the (wrapped) source nodes, add them up per
    destination node, and divide by the larger of the node's edge count and one. -/
def aggr (h : (⟨S100000x64, .f32⟩ : BufTy).Contents (Elt F)) (src dst : (⟨S1200000, .i32⟩ : BufTy).Contents (Elt F)) :
    (⟨S100000x64, .f32⟩ : BufTy).Contents (Elt F) :=
  Host.divf
    (Host.scatterAdd scatter_S100000x64_S1200000x1_S1200000x64_1_0_0_1
      (broadcastInDim S100000x64 ![] bcast_S_S100000x64 (constant S_ .f32 0x00000000#32))
      (broadcastInDim S1200000x1 ![0] bcast_S1200000_S1200000x1_0 dst)
      (Host.gather gather_S100000x64_S1200000x1_S1200000x64_1_0_n_n_0_1_164 h
        (broadcastInDim S1200000x1 ![0] bcast_S1200000_S1200000x1_0
          (select (cmpi .slt src (broadcastInDim S1200000 ![] bcast_S_S1200000 (constantI S_ 32 0#32)))
            (addi src (broadcastInDim S1200000 ![] bcast_S_S1200000 (constantI S_ 32 100000#32))) src))))
    (broadcastInDim S100000x64 ![0, 1] bcast_S100000x1_S100000x64_0_1
      (broadcastInDim S100000x1 ![0] bcast_S100000_S100000x1_0
        (maximumf
          (Host.scatterAdd scatter_S100000_S1200000x1_S1200000_n_0_0_1
            (broadcastInDim S100000 ![] bcast_S_S100000 (constant S_ .f32 0x00000000#32))
            (broadcastInDim S1200000x1 ![0] bcast_S1200000_S1200000x1_0 dst)
            (broadcastInDim S1200000 ![] bcast_S_S1200000 (constant S_ .f32 0x3F800000#32)))
          (broadcastInDim S100000 ![] bcast_S_S100000 (constant S_ .f32 0x3F800000#32)))))

end Cert.Sage.K

namespace Cert.Sage.R

open Cert.ReferenceIdeal Cert.ReferenceIdeal.Facts₀

/-- The source nodes of the edges: row 0 of the edge table, as a vector. -/
def srcOf (ei : (⟨S2x1200000, .i32⟩ : BufTy).Contents (Elt F)) : (⟨S1200000, .i32⟩ : BufTy).Contents (Elt F) :=
  shapeCast _ (extractStridedSlice S1x1200000 ![0, 0] ei slices_S2x1200000_S1x1200000_0_0) shapeCasts_S1x1200000_S1200000

/-- The destination nodes of the edges: row 1 of the edge table, as a vector. -/
def dstOf (ei : (⟨S2x1200000, .i32⟩ : BufTy).Contents (Elt F)) : (⟨S1200000, .i32⟩ : BufTy).Contents (Elt F) :=
  shapeCast _ (extractStridedSlice S1x1200000 ![1, 0] ei slices_S2x1200000_S1x1200000_1_0) shapeCasts_S1x1200000_S1200000

/-- The mean of the neighbours' features: gather the rows of `h` at the (wrapped) source nodes, add them up per
    destination node, and divide by the larger of the node's edge count and one. -/
def aggr (h : (⟨S100000x64, .f32⟩ : BufTy).Contents (Elt F)) (src dst : (⟨S1200000, .i32⟩ : BufTy).Contents (Elt F)) :
    (⟨S100000x64, .f32⟩ : BufTy).Contents (Elt F) :=
  Host.divf
    (Host.scatterAdd scatter_S100000x64_S1200000x1_S1200000x64_1_0_0_1
      (broadcastInDim S100000x64 ![] bcast_S_S100000x64 (constant S_ .f32 0x00000000#32))
      (broadcastInDim S1200000x1 ![0] bcast_S1200000_S1200000x1_0 dst)
      (Host.gather gather_S100000x64_S1200000x1_S1200000x64_1_0_n_n_0_1_164 h
        (broadcastInDim S1200000x1 ![0] bcast_S1200000_S1200000x1_0
          (select (cmpi .slt src (broadcastInDim S1200000 ![] bcast_S_S1200000 (constantI S_ 32 0#32)))
            (addi src (broadcastInDim S1200000 ![] bcast_S_S1200000 (constantI S_ 32 100000#32))) src))))
    (broadcastInDim S100000x64 ![0, 1] bcast_S100000x1_S100000x64_0_1
      (broadcastInDim S100000x1 ![0] bcast_S100000_S100000x1_0
        (maximumf
          (Host.scatterAdd scatter_S100000_S1200000x1_S1200000_n_0_0_1
            (broadcastInDim S100000 ![] bcast_S_S100000 (constant S_ .f32 0x00000000#32))
            (broadcastInDim S1200000x1 ![0] bcast_S1200000_S1200000x1_0 dst)
            (broadcastInDim S1200000 ![] bcast_S_S1200000 (constant S_ .f32 0x3F800000#32)))
          (broadcastInDim S100000 ![] bcast_S_S100000 (constant S_ .f32 0x3F800000#32)))))

end Cert.Sage.R

namespace Cert.Sage

/-- The two programs' edge vectors are one function of the edge table. -/
theorem srcOf_eq (ei : (⟨Cert.KernelIdeal.S2x1200000, .i32⟩ : BufTy).Contents (Elt F)) : K.srcOf ei = R.srcOf ei := rfl
theorem dstOf_eq (ei : (⟨Cert.KernelIdeal.S2x1200000, .i32⟩ : BufTy).Contents (Elt F)) : K.dstOf ei = R.dstOf ei := rfl

/-- The two programs' aggregations are one function. -/
theorem aggr_eq (h : (⟨Cert.KernelIdeal.S100000x64, .f32⟩ : BufTy).Contents (Elt F))
    (src dst : (⟨Cert.KernelIdeal.S1200000, .i32⟩ : BufTy).Contents (Elt F)) : K.aggr h src dst = R.aggr h src dst := rfl

end Cert.Sage

end
-- ==== Proof.Model.lean ====
/-
  The two-layer network as ONE function of its inputs, over an aggregation left abstract.

  With `agg` the map from a node-feature matrix to the matrix of its neighbourhood means, the network is
  `h = relu(dense(agg x, x; W1l, W1r, b1))`, `out = dense(agg h, h; W2l, W2r, b2)`. Both programs compute `agg` on the
  host by the same operations, so the comparison never looks inside it.
-/
import proofs.«106176_j44547400794522_1_alg».proof.Proof.LibSageDense

noncomputable section

namespace Cert.Sage

open Idealize.ShloMosaic Cert.LibSageDense

/-- The network's result from the inputs, given the aggregation. -/
def sage (agg : FVec Ideal ⟨2, ![100000, 64]⟩ .f32 → FVec Ideal ⟨2, ![100000, 64]⟩ .f32)
    (x : FVec Ideal ⟨2, ![100000, 64]⟩ .f32) (W1l W1r : FVec Ideal ⟨2, ![64, 64]⟩ .f32) (b1 : FVec Ideal ⟨1, ![64]⟩ .f32)
    (W2l W2r : FVec Ideal ⟨2, ![64, 32]⟩ .f32) (b2 : FVec Ideal ⟨1, ![32]⟩ .f32) : FVec Ideal ⟨2, ![100000, 32]⟩ .f32 :=
  layerLin (agg (layerRelu (agg x) x W1l W1r b1)) (layerRelu (agg x) x W1l W1r b1) W2l W2r b2

end Cert.Sage

end
-- ==== Proof.KernelRun.lean ====
/-
  The idealized kernel program's run, with its result array named.

  The program is four stretches: host operations (the first aggregation), the first layer's region, host operations
  (the second aggregation, of the first region's result), the second layer's region. Every weakly fair execution ends
  with each unscoped buffer at the contents obtained by folding those four stretches over the launch memory; the result
  buffer is the second region's result array. Reading that fold backwards: the second region leaves the dense step of
  what it found; it found the aggregation of the first region's result, that result itself, and the last three
  arguments; the first region left the dense step, with the positive part, of the aggregation of the input features,
  the input features and the first three weight arguments. So the result is the network function of the arguments.
-/
import proofs.«106176_j44547400794522_1_alg».proof.Proof.Gen.KernelIdeal.Frame
import proofs.«106176_j44547400794522_1_alg».proof.Proof.Region0
import proofs.«106176_j44547400794522_1_alg».proof.Proof.Region1
import proofs.«106176_j44547400794522_1_alg».proof.Proof.Aggregate
import proofs.«106176_j44547400794522_1_alg».proof.Proof.Model
import Idealize.ShloMosaic.Lib.StableHlo.Run

set_option maxRecDepth 16384

noncomputable section

namespace Cert.Sage.KernelRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LibSageDense

/-! ## The run, with the result buffer read -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result buffer at the last boundary's contents and
    the arguments as launched: the launch over the program's four segments, the last thread state read against the
    final state. -/
theorem run_out : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Run

/-! ## The result array is the network function of the arguments -/

section Value

variable (m : (ℓ : Loc nD τ sig) → Buf (Elt Ideal) ℓ) (ρ : Dev nD → PrngReg)

/-- The program's aggregation over the launch memory's edge table, as a function of the matrix it aggregates. -/
abbrev agg (c : Dev nD) (h : (⟨S100000x64, .f32⟩ : BufTy).Contents (Elt Ideal)) :
    (⟨S100000x64, .f32⟩ : BufTy).Contents (Elt Ideal) :=
  K.aggr h (K.srcOf (m ((c : Thread nD τ).loc main_arg1))) (K.dstOf (m ((c : Thread nD τ).loc main_arg1)))

/-! ### What the first region finds -/

/-- The first region's aggregated features: the host stretch before it, read. -/
theorem entry0_v22 (c : Dev nD) : V1 m ρ c main_v22 = agg m c (m ((c : Thread nD τ).loc main_arg0)) := by
  show StableHlo.after hostOps0 (W0 m ρ c) (Proc.devRef .tc main_v22) = _
  after_results_simp
  rfl

theorem entry0_arg0 (c : Dev nD) : V1 m ρ c main_arg0 = (m ((c : Thread nD τ).loc main_arg0)) := by
  show StableHlo.after hostOps0 (W0 m ρ c) (Proc.devRef .tc main_arg0) = _
  after_results_simp
theorem entry0_arg2 (c : Dev nD) : V1 m ρ c main_arg2 = (m ((c : Thread nD τ).loc main_arg2)) := by
  show StableHlo.after hostOps0 (W0 m ρ c) (Proc.devRef .tc main_arg2) = _
  after_results_simp
theorem entry0_arg3 (c : Dev nD) : V1 m ρ c main_arg3 = (m ((c : Thread nD τ).loc main_arg3)) := by
  show StableHlo.after hostOps0 (W0 m ρ c) (Proc.devRef .tc main_arg3) = _
  after_results_simp
theorem entry0_arg4 (c : Dev nD) : V1 m ρ c main_arg4 = (m ((c : Thread nD τ).loc main_arg4)) := by
  show StableHlo.after hostOps0 (W0 m ρ c) (Proc.devRef .tc main_arg4) = _
  after_results_simp

/-! ### What the first region leaves -/

/-- The first region's result: the hidden matrix. -/
theorem exit0_v23 (c : Dev nD) :
    W2 m ρ c (Proc.devRef .tc main_v23)
      = layerRelu (m := 100000) (k := 64) (n := 64) (agg m c (m ((c : Thread nD τ).loc main_arg0))) (m ((c : Thread nD τ).loc main_arg0)) (m ((c : Thread nD τ).loc main_arg2)) (m ((c : Thread nD τ).loc main_arg3)) (m ((c : Thread nD τ).loc main_arg4)) := by
  refine (W2_arr m ρ c 5).trans ((Region0.final (V1 m ρ) c).trans ?_)
  rw [entry0_v22, entry0_arg0, entry0_arg2, entry0_arg3, entry0_arg4]

/-- The edge vectors, computed before the first region and untouched by it. -/
theorem exit0_v1 (c : Dev nD) : W2 m ρ c (Proc.devRef .tc main_v1) = K.srcOf (m ((c : Thread nD τ).loc main_arg1)) := by
  rw [W2_of_ne m ρ c main_v1 (by decide)]
  show StableHlo.after hostOps0 (W0 m ρ c) (Proc.devRef .tc main_v1) = _
  after_results_simp
  rfl
theorem exit0_v3 (c : Dev nD) : W2 m ρ c (Proc.devRef .tc main_v3) = K.dstOf (m ((c : Thread nD τ).loc main_arg1)) := by
  rw [W2_of_ne m ρ c main_v3 (by decide)]
  show StableHlo.after hostOps0 (W0 m ρ c) (Proc.devRef .tc main_v3) = _
  after_results_simp
  rfl
theorem exit0_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp
theorem exit0_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp
theorem exit0_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp

/-! ### What the second region finds -/

/-- The second region's aggregated features: the aggregation of the hidden matrix. -/
theorem entry1_v42 (c : Dev nD) : V3 m ρ c main_v42 = agg m c (W2 m ρ c (Proc.devRef .tc main_v23)) := by
  show StableHlo.after hostOps1 (W2 m ρ c) (Proc.devRef .tc main_v42) = _
  after_results_simp
  rw [exit0_v1, exit0_v3]
  rfl

theorem entry1_v23 (c : Dev nD) : V3 m ρ c main_v23 = W2 m ρ c (Proc.devRef .tc main_v23) := by
  show StableHlo.after hostOps1 (W2 m ρ c) (Proc.devRef .tc main_v23) = _
  after_results_simp
theorem entry1_arg5 (c : Dev nD) : V3 m ρ c main_arg5 = (m ((c : Thread nD τ).loc main_arg5)) := by
  show StableHlo.after hostOps1 (W2 m ρ c) (Proc.devRef .tc main_arg5) = _
  after_results_simp
  exact exit0_arg5 m ρ c
theorem entry1_arg6 (c : Dev nD) : V3 m ρ c main_arg6 = (m ((c : Thread nD τ).loc main_arg6)) := by
  show StableHlo.after hostOps1 (W2 m ρ c) (Proc.devRef .tc main_arg6) = _
  after_results_simp
  exact exit0_arg6 m ρ c
theorem entry1_arg7 (c : Dev nD) : V3 m ρ c main_arg7 = (m ((c : Thread nD τ).loc main_arg7)) := by
  show StableHlo.after hostOps1 (W2 m ρ c) (Proc.devRef .tc main_arg7) = _
  after_results_simp
  exact exit0_arg7 m ρ c

/-! ### The result -/

/-- The result array after the run is the network function of the arguments. -/
theorem result (c : Dev nD) :
    W4 m ρ c (Proc.devRef .tc main_v43)
      = sage (agg m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Region1.final (V3 m ρ) c).trans ?_)
  rw [entry1_v42, entry1_v23, entry1_arg5, entry1_arg6, entry1_arg7, exit0_v23]
  rfl

/-- The idealized kernel program's run: it terminates without a fault with the result at the network function of the
    arguments, and the arguments as launched. -/
theorem run : θ_run defs (onTc (τ := τ) (main (F := Ideal))) ⟨m, fun _ => 0, ρ⟩ (fun r => ∀ c : Dev nD,
      r.2.mem ((c.tc : Thread nD τ).loc main_v43)
        = sage (agg m c) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (run_out m ρ)

end Value

end Cert.Sage.KernelRun

end
-- ==== Proof.RefValue.lean ====
/-
  The reference's result is the network function of its inputs.

  The reference is one line of host operations. Read stage by stage: the first aggregation of the inputs; the dense
  step of it and the inputs, with the positive part (a called `relu`: the maximum with a broadcast zero); the second
  aggregation, of that hidden matrix, by the same operations on the same edge vectors; the second dense step. The two
  dense steps are read entry by entry as sums over the contracted coordinate; the aggregations are carried whole.
-/
import proofs.«106176_j44547400794522_1_alg».proof.Proof.Gen.ReferenceIdeal.Read
import proofs.«106176_j44547400794522_1_alg».proof.Proof.LibSageDense
import proofs.«106176_j44547400794522_1_alg».proof.Proof.Aggregate
import proofs.«106176_j44547400794522_1_alg».proof.Proof.Model

noncomputable section

namespace Cert.Sage.Ref

open Cert.ReferenceIdeal Cert.ReferenceIdeal.Facts₀ Cert.ReferenceIdeal.Read Idealize.ShloMosaic Cert.LibSageDense

variable (x0 : (⟨S100000x64, .f32⟩ : BufTy).Contents (Elt Ideal)) (x1 : (⟨S2x1200000, .i32⟩ : BufTy).Contents (Elt Ideal))
  (x2 x3 : (⟨S64x64, .f32⟩ : BufTy).Contents (Elt Ideal)) (x4 : (⟨S64, .f32⟩ : BufTy).Contents (Elt Ideal))
  (x5 x6 : (⟨S64x32, .f32⟩ : BufTy).Contents (Elt Ideal)) (x7 : (⟨S32, .f32⟩ : BufTy).Contents (Elt Ideal))

/-- The reference's aggregation, as a function of the matrix it aggregates. -/
abbrev agg (h : (⟨S100000x64, .f32⟩ : BufTy).Contents (Elt Ideal)) : (⟨S100000x64, .f32⟩ : BufTy).Contents (Elt Ideal) :=
  R.aggr h (R.srcOf x1) (R.dstOf x1)

/-- The first aggregation is the aggregation of the input features. -/
theorem v22_eq : val_main_v22 (F := Ideal) x0 x1 = agg x1 x0 := rfl

/-- The hidden matrix: the first dense step with the positive part. -/
theorem v29_eq : val_main_v29 (F := Ideal) x0 x1 x2 x3 x4 = layerRelu (agg x1 x0) x0 x2 x3 x4 := by
  rw [← v22_eq]
  unfold val_main_v29 val_main_v28 val_main_v25 val_main_v23 val_main_v24 val_main_v27 val_main_v26 val_main_call0_v0
    val_main_call0_cst
  exact host_layerRelu_eq dot_S100000x64_S64x64_S100000x64_1_0_0_1_n_n rfl (val_main_v22 (F := Ideal) x0 x1) x0 x2 x3 x4
    bcast_S64_S1x64_1 bcast_S1x64_S100000x64_0_1 bcast_S_S100000x64

/-- The second aggregation is the aggregation of the hidden matrix. -/
theorem v48_eq : val_main_v48 (F := Ideal) x0 x1 x2 x3 x4 = agg x1 (val_main_v29 (F := Ideal) x0 x1 x2 x3 x4) := rfl

/-- The reference's result is the network function of its inputs. -/
theorem v54_eq : val_main_v54 (F := Ideal) x0 x1 x2 x3 x4 x5 x6 x7 = sage (agg x1) x0 x2 x3 x4 x5 x6 x7 := by
  unfold sage
  rw [← v29_eq, ← v48_eq]
  unfold val_main_v54 val_main_v51 val_main_v49 val_main_v50 val_main_v53 val_main_v52
  exact host_layerLin_eq dot_S100000x64_S64x32_S100000x32_1_0_0_1_n_n rfl (val_main_v48 (F := Ideal) x0 x1 x2 x3 x4)
    (val_main_v29 (F := Ideal) x0 x1 x2 x3 x4) x5 x6 x7 bcast_S32_S1x32_1 bcast_S1x32_S100000x32_0_1

end Cert.Sage.Ref

end
-- ==== Proof.lean ====
/-
  A two-layer graph network with mean aggregation: the tiled kernel program against the plain reference, on the
  extended reals.

  Each layer takes the node features `h`, forms for every node the mean of its in-neighbours' features (gather along the
  edges, add up per destination node, divide by the larger of the in-degree and one), and applies a dense step
  `agg·Wl + h·Wr + b`; the first layer ends with the positive part. Both programs do the aggregation on the host with
  the same operations, and both form the dense step in the same order (the two products are added first, the bias last),
  so the two results are the same expression of the inputs and no finiteness of the inputs is used. What differs is only
  how the dense step is carried out: the reference by two whole `dot_general`s; the kernel program by a grid of 20 points
  over blocks of 5000 rows, each point multiplying its blocks (after a rounding of the operands that is the identity on the
  extended reals) into zero accumulators.

  The proof reads each side as the function `sage` (Proof/Model.lean) of the inputs over its own aggregation
  (Proof/KernelRun.lean for the kernel program, through the two regions' block-by-block results in Proof/Region0.lean
  and Proof/Region1.lean; Proof/RefValue.lean for the reference, over the generated stage-by-stage reading), and the two
  aggregations are one function (Proof/Aggregate.lean). The three frames are the generated ones; no operation was
  rewritten by the idealization, so there is nothing to preserve.
-/
import proofs.«106176_j44547400794522_1_alg».proof.Defs
import proofs.«106176_j44547400794522_1_alg».proof.Proof.Gen.Kernel
import proofs.«106176_j44547400794522_1_alg».proof.Proof.Gen.Kernel.Frame
import proofs.«106176_j44547400794522_1_alg».proof.Proof.Gen.KernelIdeal
import proofs.«106176_j44547400794522_1_alg».proof.Proof.Gen.KernelIdeal.Frame
import proofs.«106176_j44547400794522_1_alg».proof.Proof.Gen.ReferenceIdeal
import proofs.«106176_j44547400794522_1_alg».proof.Proof.Gen.Pre_finite_inputs
import proofs.«106176_j44547400794522_1_alg».proof.Proof.Gen.ReferenceIdeal.Run
import proofs.«106176_j44547400794522_1_alg».proof.Proof.Gen.ReferenceIdeal.Read
import proofs.«106176_j44547400794522_1_alg».proof.Proof.KernelRun
import proofs.«106176_j44547400794522_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network function of the arguments: the kernel
    program over its aggregation, the reference over its own, and the two aggregations are the same function. -/
theorem algebraic : Cert.algebraic_KernelIdeal_ReferenceIdeal := by
  intro m ρ m' ρ' _ hagree
  refine ⟨fun c => Cert.Sage.sage (Cert.Sage.KernelRun.agg m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.Sage.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.Sage.Ref.v54_eq]
  obtain ⟨h0, h1, h2, h3, h4, h5, h6, h7⟩ := hagree c
  rw [h0, h1, h2, h3, h4, h5, h6, h7]
  have hagg : Cert.Sage.Ref.agg (m ((c.tc : Thread Cert.KernelIdeal.nD Cert.KernelIdeal.τ).loc Cert.KernelIdeal.main_arg1)) = Cert.Sage.KernelRun.agg m c := funext fun h => by
    show Cert.Sage.R.aggr h (Cert.Sage.R.srcOf _) (Cert.Sage.R.dstOf _) = Cert.Sage.K.aggr h (Cert.Sage.K.srcOf _) (Cert.Sage.K.dstOf _)
    rw [Cert.Sage.aggr_eq, Cert.Sage.srcOf_eq, Cert.Sage.dstOf_eq]
  rw [hagg]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
